-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S1024x16 : Shape := ⟨2, ![1024, 16]⟩
abbrev S1024x1024 : Shape := ⟨2, ![1024, 1024]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x16 .f32) (main_arg1 : FVec F S1024x16 .f32) (main_arg2 : FVec F S1024x1024 .f32) : IVec S_ 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8192x16 : Shape := ⟨2, ![8192, 16]⟩
abbrev S1024x16 : Shape := ⟨2, ![1024, 16]⟩
abbrev S1024x1024 : Shape := ⟨2, ![1024, 1024]⟩
abbrev S8192x1024 : Shape := ⟨2, ![8192, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x16, .f32⟩
  | .hbm, ⟨1, _⟩ => ⟨S1024x16, .f32⟩
  | .hbm, ⟨2, _⟩ => ⟨S1024x1024, .f32⟩
  | .hbm, ⟨3, _⟩ => ⟨S8192x1024, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x16_S1024x16_0_0 : ∀ a, (![0, 0] : Fin 2 → Nat) a + S1024x16.size a ≤ S1024x16.size a
  h_S1024x16 : 0 < S1024x16.numel
  reduces_S1024x16_S1024 : S1024x16.Reduces [1] S1024
  shapeCasts_S1024_S1024x1 : S1024.ShapeCasts S1024x1
  broadcasts_S1024x1_S1024x16 : S1024x1.Broadcasts S1024x16
  slices_S1024x16_o0_0_S1024x1 : S1024x16.Slices ![0, 0] S1024x1
  shapeCasts_S1024x1_S1024 : S1024x1.ShapeCasts S1024
  shapeCasts_S1024_S1x1024 : S1024.ShapeCasts S1x1024
  broadcasts_S1024x1_S1024x1024 : S1024x1.Broadcasts S1024x1024
  broadcasts_S1x1024_S1024x1024 : S1x1024.Broadcasts S1024x1024
  slices_S1024x16_o0_1_S1024x1 : S1024x16.Slices ![0, 1] S1024x1
  slices_S1024x16_o0_2_S1024x1 : S1024x16.Slices ![0, 2] S1024x1
  slices_S1024x16_o0_3_S1024x1 : S1024x16.Slices ![0, 3] S1024x1
  slices_S1024x16_o0_4_S1024x1 : S1024x16.Slices ![0, 4] S1024x1
  slices_S1024x16_o0_5_S1024x1 : S1024x16.Slices ![0, 5] S1024x1
  slices_S1024x16_o0_6_S1024x1 : S1024x16.Slices ![0, 6] S1024x1
  slices_S1024x16_o0_7_S1024x1 : S1024x16.Slices ![0, 7] S1024x1
  slices_S1024x16_o0_8_S1024x1 : S1024x16.Slices ![0, 8] S1024x1
  slices_S1024x16_o0_9_S1024x1 : S1024x16.Slices ![0, 9] S1024x1
  slices_S1024x16_o0_10_S1024x1 : S1024x16.Slices ![0, 10] S1024x1
  slices_S1024x16_o0_11_S1024x1 : S1024x16.Slices ![0, 11] S1024x1
  slices_S1024x16_o0_12_S1024x1 : S1024x16.Slices ![0, 12] S1024x1
  slices_S1024x16_o0_13_S1024x1 : S1024x16.Slices ![0, 13] S1024x1
  slices_S1024x16_o0_14_S1024x1 : S1024x16.Slices ![0, 14] S1024x1
  slices_S1024x16_o0_15_S1024x1 : S1024x16.Slices ![0, 15] S1024x1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S8192x16.size a
  hwx0_0 : ∀ i : grid0.Coords, EltTy.bits .f32 = 32 ∨ (Rect.block (s := S8192x16) S1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S1024x16.size a
  hwx0_1 : ∀ i : grid0.Coords, EltTy.bits .f32 = 32 ∨ (Rect.block (s := S1024x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x16 : Shape := ⟨2, ![8192, 16]⟩
abbrev S1024x16 : Shape := ⟨2, ![1024, 16]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x1x16 : Shape := ⟨3, ![8192, 1, 16]⟩
abbrev S1x1024x16 : Shape := ⟨3, ![1, 1024, 16]⟩
abbrev S8192x1024x16 : Shape := ⟨3, ![8192, 1024, 16]⟩
abbrev S8192x1024 : Shape := ⟨2, ![8192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S1024x16, .f32⟩
  | .hbm, ⟨2, _⟩ => ⟨S1024x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x16, .f32⟩
  | .hbm, ⟨10, _⟩ => ⟨S8192x16, .f32⟩
  | .hbm, ⟨11, _⟩ => ⟨S8192x16, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x16, .f32⟩
  | .hbm, ⟨19, _⟩ => ⟨S8192x16, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x16, .f32⟩
  | .hbm, ⟨25, _⟩ => ⟨S8192x16, .f32⟩
  | .hbm, ⟨26, _⟩ => ⟨S8192x1x16, .f32⟩
  | .hbm, ⟨27, _⟩ => ⟨S1x1024x16, .f32⟩
  | .hbm, ⟨28, _⟩ => ⟨S8192x1024x16, .f32⟩
  | .hbm, ⟨29, _⟩ => ⟨S8192x1024x16, .f32⟩
  | .hbm, ⟨30, _⟩ => ⟨S8192x1024x16, .f32⟩
  | .hbm, ⟨31, _⟩ => ⟨S8192x1024x16, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S8192x16_S8192_d1 : S8192x16.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x16_0_1 : S8192x1.BroadcastsInDim S8192x16 (![0, 1] : Fin 2 → Fin S8192x16.rank)
  bcast_S8192x16_S8192x1x16_0_2 : S8192x16.BroadcastsInDim S8192x1x16 (![0, 2] : Fin 2 → Fin S8192x1x16.rank)
  bcast_S1024x16_S1x1024x16_1_2 : S1024x16.BroadcastsInDim S1x1024x16 (![1, 2] : Fin 2 → Fin S1x1024x16.rank)
  bcast_S8192x1x16_S8192x1024x16_0_1_2 : S8192x1x16.BroadcastsInDim S8192x1024x16 (![0, 1, 2] : Fin 3 → Fin S8192x1024x16.rank)
  bcast_S1x1024x16_S8192x1024x16_0_1_2 : S1x1024x16.BroadcastsInDim S8192x1024x16 (![0, 1, 2] : Fin 3 → Fin S8192x1024x16.rank)
  reducesTo_S8192x1024x16_S8192x1024_d2 : S8192x1024x16.ReducesTo [2] S8192x1024
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LaplaceRows.lean ====
/-
  The function both programs compute, entry by entry, over the extended reals.

  Each of the 8192 rows of `x` (sixteen entries) is standardised: its mean is taken off, and the centred row is
  multiplied by the reciprocal square root of the mean of its squares plus a small constant.  Against each of the
  1024 design points `z` (sixteen entries each) the standardised row `u` gives the Laplace kernel value
  `exp (-(Σ_k |u_k - z_k|) / 1)`, and the result's entry `(n, c)` is the product of that row of kernel values with
  column `c` of the 1024 × 1024 factor:  `Σ_k laplace (u_n) (z_k) · chol (k, c)`.

  The constants stay the bit patterns the programs print (16, the small constant, 1): the same pattern is the same
  extended real wherever it occurs, so none of them is ever evaluated.  An absolute value is the larger of a
  number and its negative.

  The one law needed beyond this: a sum over sixteen positions is the sixteen terms added from left to right,
  which is how a loop that adds one coordinate's distance at a time accumulates it.  Addition of extended reals is
  associative and commutative at the infinities too, so nothing here asks the entries to be finite.
-/
import Idealize.ShloMosaic.PureOps.Ideal.Laws
import Idealize.ShloMosaic.Lib.ValueIdx

noncomputable section

open scoped BigOperators

namespace Cert.LaplaceRows

open Idealize.ShloMosaic Idealize.ShloMosaic.ValueIdx

/-- The mean of a row of sixteen entries: their sum over the pattern of 16. -/
def rowMean (r : Fin 16 → EReal) : EReal := Ideal.div (∑ k, r k) (Ideal.ofBits .f32 0x41800000#32)

/-- The row with its mean taken off. -/
def centred (r : Fin 16 → EReal) (d : Fin 16) : EReal := r d - rowMean r

/-- The mean of the squares of the centred row. -/
def rowVar (r : Fin 16 → EReal) : EReal :=
  Ideal.div (∑ k, centred r k * centred r k) (Ideal.ofBits .f32 0x41800000#32)

/-- The standardised row: centred, times the reciprocal square root of the variance plus the small constant. -/
def normRow (r : Fin 16 → EReal) (d : Fin 16) : EReal :=
  centred r d * Ideal.rsqrt (rowVar r + Ideal.ofBits .f32 0x3727C5AC#32)

/-- The distance of two rows in one coordinate, `|u_k - v_k|`. -/
def gap (u v : Fin 16 → EReal) (k : Fin 16) : EReal := max (u k - v k) (-(u k - v k))

/-- The Laplace kernel of two rows: `exp (-(Σ_k |u_k - v_k|) / 1)`. -/
def laplace (u v : Fin 16 → EReal) : EReal :=
  Ideal.exp (Ideal.div (-(∑ k, gap u v k)) (Ideal.ofBits .f32 0x3F800000#32))

/-- Entry `(n, c)` of the result: the kernel values of row `n` against every design point, times column `c`. -/
def entry (x : (⟨2, ![8192, 16]⟩ : Shape).Idx → EReal) (z : (⟨2, ![1024, 16]⟩ : Shape).Idx → EReal)
    (chol : (⟨2, ![1024, 1024]⟩ : Shape).Idx → EReal) (n : Fin 8192) (c : Fin 1024) : EReal :=
  ∑ k : Fin 1024, laplace (normRow fun d => x (ix2 n d)) (fun d => z (ix2 k d)) * chol (ix2 k c)

/-- The whole result as one function of the three argument arrays. -/
def result (x : (⟨2, ![8192, 16]⟩ : Shape).Idx → EReal) (z : (⟨2, ![1024, 16]⟩ : Shape).Idx → EReal)
    (chol : (⟨2, ![1024, 1024]⟩ : Shape).Idx → EReal) : (⟨2, ![8192, 1024]⟩ : Shape).Idx → EReal :=
  fun i => entry x z chol (i 0) (i 1)

theorem result_apply (x : (⟨2, ![8192, 16]⟩ : Shape).Idx → EReal) (z : (⟨2, ![1024, 16]⟩ : Shape).Idx → EReal)
    (chol : (⟨2, ![1024, 1024]⟩ : Shape).Idx → EReal) (n : Fin 8192) (c : Fin 1024) :
    result x z chol (ix2 n c) = entry x z chol n c := rfl

/-- A sum over sixteen positions is its terms added from left to right. -/
theorem sum_sixteen (a : Fin 16 → EReal) :
    ∑ k, a k = a ⟨0, by decide⟩ + a ⟨1, by decide⟩ + a ⟨2, by decide⟩ + a ⟨3, by decide⟩ + a ⟨4, by decide⟩ + a ⟨5, by decide⟩ + a ⟨6, by decide⟩ + a ⟨7, by decide⟩ + a ⟨8, by decide⟩ + a ⟨9, by decide⟩ + a ⟨10, by decide⟩ + a ⟨11, by decide⟩ + a ⟨12, by decide⟩ + a ⟨13, by decide⟩ + a ⟨14, by decide⟩ + a ⟨15, by decide⟩ := by
  simp only [Fin.sum_univ_castSucc, Fin.sum_univ_zero, zero_add]
  rfl

end Cert.LaplaceRows

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibKeepdims3.lean ====
/-
  Layout facts a reduction over the LAST axis of a three-axis array meets when its result is kept as a trailing
  unit axis and spread back, each read at an entry given by its coordinates: the sum along the last axis of an
  `[a, b, c]` array; an `[a, b]` array viewed as `[a, b, 1]` or as `[a, 1, b]`, and an `[a, 1]` array viewed as `[a, 1, 1]` or as `[a]`; and the
  three spreadings `[a, 1, 1] → [a, b, 1]`, `[a, b, 1] → [a, b, c]`, `[a, 1, c] → [a, b, c]`. They hold for any
  extents, and all but the sum for entries of any type.
-/
import Idealize.ShloMosaic.Lib.Pipeline.Value
import Idealize.ShloMosaic.Lib.ValueIdx
import Idealize.ShloMosaic.PureOps.Ideal.Laws

noncomputable section

open scoped BigOperators

namespace Cert.LibKeepdims3

open Idealize.ShloMosaic Idealize.ShloMosaic.ValueIdx

variable {α : Type}

/-- An `[a, b]` array cast to `[a, b, 1]` reads, at `(i, j, u)`, the operand at `(i, j)`: the same row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, 1]` array cast to `[a, 1, 1]` reads, at `(i, u, v)`, the operand at `(i, u)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i u) :=
  shapeCast_apply x h _ _ (by
    have hv : v.val = 0 := by omega
    rw [Shape.rowMajor_val_two, Shape.rowMajor_val_three]
    show i.val * 1 + u.val = (i.val * 1 + u.val) * 1 + v.val
    omega)

/-- An `[a, 1]` array cast to `[a]` reads, at `i`, the operand's one entry of row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, b]` array cast to `[a, 1, b]` reads, at `(i, u, j)`, the operand at `(i, j)`: the same row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, 1]` array spread to `[a, b, 1]` reads, at `(i, j, u)`, the operand's one entry of row `i`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, b, 1]` array spread to `[a, b, c]` reads, at `(i, j, k)`, the operand's one entry at `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array spread to `[a, b, c]` reads, at `(i, j, k)`, the operand at `(i, 0, k)`: the same for every `j`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Over the extended reals, the sum of an `[a, b, c]` array along its last axis, started from the zero word, is at
    `(i, j)` the sum over `k` of the entries `(i, j, k)`. -/
theorem multiReduction_add_last_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext ax
  apply Fin.ext
  match ax with
  | ⟨0, _⟩ => rfl
  | ⟨1, _⟩ => rfl
  | ⟨2, _⟩ => rfl

/-- The same sum with the accumulator's side condition typed as a printed program's evidence for it really is (the
    zero word equal to itself), so that the statement is found by rewriting inside a printed value. -/
theorem multiReduction_add_last_printed {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_last_apply src h hφ hacc i j

/-- The sum of an `[a, b]` array along its second axis, at row `i`, with the side condition typed as printed. -/
theorem multiReduction_add_rows_printed {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims3

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«120727_j46608985096827_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.BlockEntry.lean ====
/-
  One block of the kernel's result, entry by entry, over the extended reals.

  At a grid point the body holds 1024 rows of `x` (sixteen entries each), all 1024 design points and the whole
  1024 × 1024 factor.  It standardises each row (mean off, times the reciprocal square root of the variance plus the
  small constant), adds up the sixteen coordinate distances `|u_d - z_d|` of every row against every design point one
  coordinate at a time starting from zero, takes zero minus that sum, divides by one, exponentiates, and multiplies
  the 1024 × 1024 table of kernel values by the factor.  Read at entry `(p, c)` of the block this is
  `Σ_k laplace (u_p) (z_k) · chol (k, c)`: the sixteen distances added from left to right are their sum, zero minus a
  number is its negative, and a change of float format is the identity on extended reals.
-/
import proofs.«120727_j46608985096827_1_alg».proof.Proof.Gen.KernelIdeal.Skeleton
import proofs.«120727_j46608985096827_1_alg».proof.Proof.LaplaceRows
import proofs.«120727_j46608985096827_1_alg».proof.Proof.LibKeepdims
import proofs.«120727_j46608985096827_1_alg».proof.Proof.LibKeepdims3
import proofs.«120727_j46608985096827_1_alg».proof.Proof.LibRowLayout
import proofs.«120727_j46608985096827_1_alg».proof.Proof.LibPlainDotFormats
import Idealize.ShloMosaic.Lib.Pipeline.Value
import Idealize.ShloMosaic.Lib.ValueIdx
import Idealize.ShloMosaic.PureOps.Ideal.Laws

noncomputable section

open scoped BigOperators

namespace Cert.KernelIdeal.BlockEntry

open Cert.KernelIdeal Cert.KernelIdeal.Gen Idealize.ShloMosaic Idealize.ShloMosaic.ValueIdx Cert.LaplaceRows

/-! ## Pointwise operations read at an index -/

theorem rsqrt_apply {s : Shape} {φ : FTy} (a : FVec Ideal s φ) (i : s.Idx) : rsqrt a i = Ideal.rsqrt (a i) := rfl
theorem exp_apply {s : Shape} {φ : FTy} (a : FVec Ideal s φ) (i : s.Idx) : exp a i = Ideal.exp (a i) := rfl
theorem absf_apply {s : Shape} {φ : FTy} (a : FVec Ideal s φ) (i : s.Idx) : absf a i = max (a i) (-(a i)) := rfl

/-! ## The standardised rows -/

/-- The sum of a sixteen-column block along its rows, from the zero pattern, is at row `p` the sum of the row's
    sixteen entries (the side conditions typed as the body's own text carries them). -/
theorem rowSum_apply (src : FVec Ideal S1024x16 .f32) (hφ : FTy.f32 = FTy.f32 ∨ FTy.f32 = FTy.bf16)
    (hacc : (0x00000000#32 : BitVec 32) = 0x00000000#32) (p : Fin 1024) :
    multiReduction .add [1] S1024 src 0x00000000#32 reduces_S1024x16_S1024 hφ hacc (ix1 p) = ∑ k : Fin 16, src (ix2 p k) :=
  LibKeepdims3.multiReduction_add_rows_printed src reduces_S1024x16_S1024 hφ hacc p

/-- Entry `(p, d)` of the standardised block is the standardised row `p` at `d`: the two row sums are sums over the
    sixteen columns, and the one-column arrays of row statistics spread back over the columns read their row's entry. -/
theorem standardised_apply (x0 : FVec Ideal S1024x16 .f32) (p : Fin 1024) (d : Fin 16) :
    k0_pay2 (F := Ideal) x0 (ix2 p d) = normRow (fun k => x0 (ix2 p k)) d := by
  unfold k0_pay2
  simp only [mulf_apply, subf_apply, addf_apply, divf_apply, broadcast_apply, rsqrt_apply,
    LibKeepdims.broadcastTo_a1_ab_apply, LibKeepdims.shapeCast_a_a1_apply,
    rowSum_apply _ k0_pay2._proof_2 k0_pay2._proof_3, Ideal.ofBits_def]
  rfl

/-! ## One coordinate's distance -/

/-- Column `d` of a sixteen-column block, cut out as a one-column array, reads at row `p` the block's entry `(p, d)`. -/
theorem column_apply {α : Type} (v : S1024x16.Idx → α) (d : Nat) (hd : d < 16) (h : S1024x16.Slices ![0, d] S1024x1)
    (p : Fin 1024) : extractStridedSlice S1024x1 ![0, d] v h (ix2 p (0 : Fin 1)) = v (ix2 p (⟨d, hd⟩ : Fin 16)) :=
  extractStridedSlice_apply ![0, d] v h (ix2 p (0 : Fin 1)) (ix2 p (⟨d, hd⟩ : Fin 16)) fun a => by
    match a with
    | ⟨0, _⟩ => exact (Nat.zero_add _).symm
    | ⟨1, _⟩ => rfl

/-- A column of row values spread along the rows, minus column `d` of the design points laid out as a row and spread
    down the rows, reads at `(p, q)` the row value of `p` minus coordinate `d` of design point `q`. -/
theorem difference_apply (col : FVec Ideal S1024x1 .f32) (z : Vec Ideal S1024x16 .f32) (d : Nat) (hd : d < 16)
    (h : S1024x16.Slices ![0, d] S1024x1) (p q : Fin 1024) :
    subf (broadcastTo S1024x1024 col broadcasts_S1024x1_S1024x1024)
      (broadcastTo S1024x1024 (shapeCast S1x1024 (shapeCast S1024 (extractStridedSlice S1024x1 ![0, d] z h)
        shapeCasts_S1024x1_S1024) shapeCasts_S1024_S1x1024) broadcasts_S1x1024_S1024x1024) (ix2 p q)
      = col (ix2 p (0 : Fin 1)) - z (ix2 q (⟨d, hd⟩ : Fin 16)) := by
  rw [subf_apply, LibKeepdims.broadcastTo_a1_ab_apply, LibRowLayout.broadcastTo_1b_ab_apply,
    LibRowLayout.shapeCast_b_1b_apply, LibKeepdims3.shapeCast_a1_a_apply, column_apply z d hd h q]

/-! ## The product with the factor -/

/-- The last payload at `(p, c)`: the sum over `k` of `exp (v (p, k) / one)` times the factor's entry `(k, c)`. -/
theorem product_apply (v : FVec Ideal S1024x1024 .f32) (one : Ideal .f32) (x2 : Vec Ideal S1024x1024 .f32) (p c : Fin 1024) :
    k0_pay1 (F := Ideal) v one x2 (ix2 p c) = ∑ k : Fin 1024, Ideal.exp (Ideal.div (v (ix2 p k)) one) * x2 (ix2 k c) := by
  unfold k0_pay1
  refine (LibPlainDot.Plain.matmul_zero_apply_formats ⟨rfl, rfl, rfl, rfl, rfl, rfl⟩ none _ _ p c).trans ?_
  rfl

/-! ## The sixteen distances, added one coordinate at a time -/

/-- The distance in coordinate `d` between row `p` of `u` and design point `q` of `z`. -/
def dist (u : FVec Ideal S1024x16 .f32) (z : Vec Ideal S1024x16 .f32) (p q : Fin 1024) (d : Nat) (hd : d < 16) : EReal :=
  gap (fun k => u (ix2 p k)) (fun k => z (ix2 q k)) ⟨d, hd⟩

/-- From zero, the first three coordinates' distances of the standardised rows. -/
theorem firstThree_apply (x0 : FVec Ideal S1024x16 .f32) (z : Vec Ideal S1024x16 .f32) (p q : Fin 1024) :
    k0_pay3 (F := Ideal) x0 z (ix2 p q)
      = Ideal.ofBits .f32 0x00000000#32 + dist (k0_pay2 x0) z p q 0 (by decide) + dist (k0_pay2 x0) z p q 1 (by decide)
        + dist (k0_pay2 x0) z p q 2 (by decide) := by
  unfold k0_pay3
  simp only [addf_apply, absf_apply, broadcast_apply,
    difference_apply _ _ 0 (by decide) slices_S1024x16_o0_0_S1024x1, column_apply _ 0 (by decide) slices_S1024x16_o0_0_S1024x1,
    difference_apply _ _ 1 (by decide) slices_S1024x16_o0_1_S1024x1, column_apply _ 1 (by decide) slices_S1024x16_o0_1_S1024x1,
    difference_apply _ _ 2 (by decide) slices_S1024x16_o0_2_S1024x1, column_apply _ 2 (by decide) slices_S1024x16_o0_2_S1024x1]
  rfl

/-- Column 3 of the standardised rows, kept as a one-column array. -/
theorem fourthColumn_apply (x0 : FVec Ideal S1024x16 .f32) (p : Fin 1024) :
    k0_pay4 (F := Ideal) x0 (ix2 p (0 : Fin 1)) = k0_pay2 x0 (ix2 p (⟨3, by decide⟩ : Fin 16)) := by
  unfold k0_pay4
  exact column_apply _ 3 (by decide) slices_S1024x16_o0_3_S1024x1 p

/-- Onto a running sum `s`: coordinate 3 (its column of row values given as `col`), then coordinates 4 to 8. -/
theorem nextSix_apply (u : FVec Ideal S1024x16 .f32) (z : Vec Ideal S1024x16 .f32) (s : FVec Ideal S1024x1024 .f32)
    (col : FVec Ideal S1024x1 .f32) (p q : Fin 1024) :
    k0_pay5 (F := Ideal) u z s col (ix2 p q)
      = s (ix2 p q) + max (col (ix2 p (0 : Fin 1)) - z (ix2 q (⟨3, by decide⟩ : Fin 16))) (-(col (ix2 p (0 : Fin 1)) - z (ix2 q (⟨3, by decide⟩ : Fin 16))))
        + dist u z p q 4 (by decide) + dist u z p q 5 (by decide) + dist u z p q 6 (by decide) + dist u z p q 7 (by decide) + dist u z p q 8 (by decide) := by
  unfold k0_pay5
  simp only [addf_apply, absf_apply,
    difference_apply _ _ 3 (by decide) slices_S1024x16_o0_3_S1024x1, column_apply _ 3 (by decide) slices_S1024x16_o0_3_S1024x1,
    difference_apply _ _ 4 (by decide) slices_S1024x16_o0_4_S1024x1, column_apply _ 4 (by decide) slices_S1024x16_o0_4_S1024x1,
    difference_apply _ _ 5 (by decide) slices_S1024x16_o0_5_S1024x1, column_apply _ 5 (by decide) slices_S1024x16_o0_5_S1024x1,
    difference_apply _ _ 6 (by decide) slices_S1024x16_o0_6_S1024x1, column_apply _ 6 (by decide) slices_S1024x16_o0_6_S1024x1,
    difference_apply _ _ 7 (by decide) slices_S1024x16_o0_7_S1024x1, column_apply _ 7 (by decide) slices_S1024x16_o0_7_S1024x1,
    difference_apply _ _ 8 (by decide) slices_S1024x16_o0_8_S1024x1, column_apply _ 8 (by decide) slices_S1024x16_o0_8_S1024x1]
  rfl

/-- Coordinate 9's difference, before its absolute value is taken. -/
theorem tenthDifference_apply (u : FVec Ideal S1024x16 .f32) (z : Vec Ideal S1024x16 .f32) (p q : Fin 1024) :
    k0_pay6 (F := Ideal) u z (ix2 p q) = u (ix2 p (⟨9, by decide⟩ : Fin 16)) - z (ix2 q (⟨9, by decide⟩ : Fin 16)) := by
  unfold k0_pay6
  simp only [difference_apply _ _ 9 (by decide) slices_S1024x16_o0_9_S1024x1, column_apply _ 9 (by decide) slices_S1024x16_o0_9_S1024x1]

/-- Zero minus: a running sum `s`, plus the absolute value of a difference `w`, plus coordinates 10 to 15. -/
theorem lastSeven_apply (u : FVec Ideal S1024x16 .f32) (z : Vec Ideal S1024x16 .f32) (s w : FVec Ideal S1024x1024 .f32)
    (p q : Fin 1024) :
    k0_pay7 (F := Ideal) u z s w (ix2 p q)
      = Ideal.ofBits .f32 0x00000000#32 - (s (ix2 p q) + max (w (ix2 p q)) (-(w (ix2 p q)))
        + dist u z p q 10 (by decide) + dist u z p q 11 (by decide) + dist u z p q 12 (by decide) + dist u z p q 13 (by decide) + dist u z p q 14 (by decide) + dist u z p q 15 (by decide)) := by
  unfold k0_pay7
  rw [subf_apply]
  simp only [addf_apply, absf_apply, broadcast_apply,
    difference_apply _ _ 10 (by decide) slices_S1024x16_o0_10_S1024x1, column_apply _ 10 (by decide) slices_S1024x16_o0_10_S1024x1,
    difference_apply _ _ 11 (by decide) slices_S1024x16_o0_11_S1024x1, column_apply _ 11 (by decide) slices_S1024x16_o0_11_S1024x1,
    difference_apply _ _ 12 (by decide) slices_S1024x16_o0_12_S1024x1, column_apply _ 12 (by decide) slices_S1024x16_o0_12_S1024x1,
    difference_apply _ _ 13 (by decide) slices_S1024x16_o0_13_S1024x1, column_apply _ 13 (by decide) slices_S1024x16_o0_13_S1024x1,
    difference_apply _ _ 14 (by decide) slices_S1024x16_o0_14_S1024x1, column_apply _ 14 (by decide) slices_S1024x16_o0_14_S1024x1,
    difference_apply _ _ 15 (by decide) slices_S1024x16_o0_15_S1024x1, column_apply _ 15 (by decide) slices_S1024x16_o0_15_S1024x1]
  rfl

/-! ## One entry of the block -/

/-- Zero minus the sixteen distances added from left to right is the negative of their sum, between the
    standardised row `p` and design point `q`. -/
theorem negDistance_apply (x0 : FVec Ideal S1024x16 .f32) (z : Vec Ideal S1024x16 .f32) (p q : Fin 1024) :
    k0_pay7 (F := Ideal) (k0_pay2 x0) z (k0_pay5 (k0_pay2 x0) z (k0_pay3 x0 z) (k0_pay4 x0)) (k0_pay6 (k0_pay2 x0) z) (ix2 p q)
      = -(∑ k, gap (normRow fun d => x0 (ix2 p d)) (fun d => z (ix2 q d)) k) := by
  rw [lastSeven_apply, nextSix_apply, firstThree_apply, fourthColumn_apply, tenthDifference_apply, sum_sixteen,
    Ideal.ofBits_zero_f32, zero_add, zero_sub]
  simp only [dist, standardised_apply]
  rfl

/-- Entry `(p, c)` of what the body stores: the Laplace kernel values of the standardised row `p` against every
    design point, times column `c` of the factor. -/
theorem blockEntry (x0 : FVec Ideal S1024x16 .f32) (z : Vec Ideal S1024x16 .f32) (x2 : Vec Ideal S1024x1024 .f32)
    (p c : Fin 1024) :
    k0_pay1 (F := Ideal) (k0_pay7 (k0_pay2 x0) z (k0_pay5 (k0_pay2 x0) z (k0_pay3 x0 z) (k0_pay4 x0)) (k0_pay6 (k0_pay2 x0) z))
        (Scalar.ofBits .f32 0x3F800000#32) x2 (ix2 p c)
      = ∑ k : Fin 1024, laplace (normRow fun d => x0 (ix2 p d)) (fun d => z (ix2 k d)) * x2 (ix2 k c) := by
  rw [product_apply]
  refine Finset.sum_congr rfl fun k _ => ?_
  rw [negDistance_apply]
  rfl

end Cert.KernelIdeal.BlockEntry

end
-- ==== Proof.WholeResult.lean ====
/-
  From the blocks to the whole result.

  The grid has eight points; point `t` is given rows `1024·t … 1024·t + 1023` of `x`, all of the design points and all
  of the factor, and writes rows `1024·t … 1024·t + 1023` of the result (every column).  What the body leaves in the
  block is, entry by entry, the specification's entry at the block's place in the array: block row `p` is array row
  `1024·t + p`, and the design points and the factor are read where they stand.  Row `r` of the result lies in the
  block of point `r / 1024`, so the eight blocks cover the array, and the array ends as the specification's function
  of the three arguments.
-/
import proofs.«120727_j46608985096827_1_alg».proof.Proof.Gen.KernelIdeal.Value
import proofs.«120727_j46608985096827_1_alg».proof.Proof.BlockEntry

noncomputable section

open scoped BigOperators

namespace Cert.KernelIdeal.WholeResult

open Cert.KernelIdeal Cert.KernelIdeal.Gen Idealize.ShloMosaic Idealize.ShloMosaic.TcCoe Idealize.SL.Sem
open Idealize.ShloMosaic.ValueIdx Cert.LaplaceRows
open Idealize.ShloMosaic.Pipeline (Dat)

/-! ## What the body leaves, as a function of the block index -/

theorem zeroOffsets : (![0, 0] : Fin 2 → Nat) = fun _ => 0 := funext fun a => by fin_cases a <;> rfl

/-- Entry `j` of the stored block, from the three blocks the body loads. -/
def blockFn (x0 : FVec Ideal S1024x16 .f32) (z : Vec Ideal S1024x16 .f32) (x2 : Vec Ideal S1024x1024 .f32)
    (j : S1024x1024.Idx) : EReal :=
  ∑ k : Fin 1024, laplace (normRow fun d => x0 (ix2 (j 0) d)) (fun d => z (ix2 k d)) * x2 (ix2 k (j 1))

/-- The body's one store covers the block, and its value is `blockFn`. -/
theorem storedBlock (x0 : FVec Ideal S1024x16 .f32) (z : Vec Ideal S1024x16 .f32) (x2 : Vec Ideal S1024x1024 .f32) :
    out0_3 (F := Ideal) x0 z x2 = blockFn x0 z x2 := by
  unfold out0_3
  rw [View.canon_unit_zero zeroOffsets]
  simp only [View.ld_unit_zero (S := S1024x16) zeroOffsets, View.ld_unit_zero (S := S1024x1024) zeroOffsets]
  funext j
  obtain ⟨p, q, rfl⟩ : ∃ (p q : Fin 1024), j = ix2 p q := ⟨j 0, j 1, eq_ix2 j⟩
  exact BlockEntry.blockEntry x0 z x2 p q

/-- A block entry is the specification's entry at `i` when the block's row is the array's row `i 0`, the design points
    are read in place, and the block's column is the factor's column `i 1`. -/
theorem blockFn_eq_result (x0 : FVec Ideal S1024x16 .f32) (z : Vec Ideal S1024x16 .f32) (x2 : Vec Ideal S1024x1024 .f32)
    (X : (⟨2, ![8192, 16]⟩ : Shape).Idx → EReal) (Z : (⟨2, ![1024, 16]⟩ : Shape).Idx → EReal)
    (C : (⟨2, ![1024, 1024]⟩ : Shape).Idx → EReal) (j : S1024x1024.Idx) (i : (⟨2, ![8192, 1024]⟩ : Shape).Idx)
    (hx : ∀ d : Fin 16, x0 (ix2 (j 0) d) = X (ix2 (i 0) d)) (hz : ∀ (k : Fin 1024) (d : Fin 16), z (ix2 k d) = Z (ix2 k d))
    (hc : ∀ k : Fin 1024, x2 (ix2 k (j 1)) = C (ix2 k (i 1))) :
    blockFn x0 z x2 j = result X Z C i := by
  unfold blockFn result entry
  refine Finset.sum_congr rfl fun k _ => ?_
  rw [hc k, funext hx, funext (hz k)]

/-! ## The blocks' places -/

variable (m : (ℓ : Loc nD τ sig) → Buf (Elt Ideal) ℓ) (ρ : Dev nD → PrngReg)

/-- Where each window's block sits at grid point `t`, decided over the eight points: the rows of `x` and of the result
    move with `t`, the design points and the factor stay. -/
theorem blockPlaces : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the specification's function of the argument arrays. -/
theorem flushed_eq (c : Dev nD) (t : Fin cfg0.N) :
    (dats m 0 c).flushed 3 t = ((cfg0.win 3).blk t).view.read (Elt Ideal)
      (result (V m c main_arg0) (V m c main_arg1) (V m c main_arg2)) := by
  show (cfg0.win 3).cut (grid0.coords t) ((dats m 0 c).after 3 t) = _
  rw [after0_3, storedBlock (iblk m c 0 t) (iblk m c 1 t) (iblk m c 2 t)]
  obtain ⟨e0, e1, e2, e3, e4, e5, e6, e7⟩ := blockPlaces t
  funext j
  show blockFn (iblk m c 0 t) (iblk m c 1 t) (iblk m c 2 t) j
    = result (V m c main_arg0) (V m c main_arg1) (V m c main_arg2) (((cfg0.win 3).blk t).view.emb j)
  refine blockFn_eq_result (iblk m c 0 t) (iblk m c 1 t) (iblk m c 2 t) (V m c main_arg0) (V m c main_arg1)
    (V m c main_arg2) j (((cfg0.win 3).blk t).view.emb j) (fun d => ?_) (fun k d => ?_) (fun k => ?_)
  · show V m c main_arg0 (((cfg0.win 0).blk t).view.emb (ix2 (j 0) d)) = V m c main_arg0 _
    refine congrArg (V m c main_arg0) (funext fun a => Fin.ext ?_)
    match a with
    | ⟨0, _⟩ =>
      show win0_0.index t (0 : Fin 2) * 1024 + 1 * (j 0).val = win0_3.index t (0 : Fin 2) * 1024 + 1 * (j 0).val
      omega
    | ⟨1, _⟩ =>
      show win0_0.index t (1 : Fin 2) * 16 + 1 * d.val = d.val
      omega
  · show V m c main_arg1 (((cfg0.win 1).blk t).view.emb (ix2 k d)) = V m c main_arg1 _
    refine congrArg (V m c main_arg1) (funext fun a => Fin.ext ?_)
    match a with
    | ⟨0, _⟩ =>
      show win0_1.index t (0 : Fin 2) * 1024 + 1 * k.val = k.val
      omega
    | ⟨1, _⟩ =>
      show win0_1.index t (1 : Fin 2) * 16 + 1 * d.val = d.val
      omega
  · show V m c main_arg2 (((cfg0.win 2).blk t).view.emb (ix2 k (j 1))) = V m c main_arg2 _
    refine congrArg (V m c main_arg2) (funext fun a => Fin.ext ?_)
    match a with
    | ⟨0, _⟩ =>
      show win0_2.index t (0 : Fin 2) * 1024 + 1 * k.val = k.val
      omega
    | ⟨1, _⟩ =>
      show win0_2.index t (1 : Fin 2) * 1024 + 1 * (j 1).val = win0_3.index t (1 : Fin 2) * 1024 + 1 * (j 1).val
      omega

/-! ## The cover, and the array after the run -/

/-- An index of the result is in point `t`'s block iff each coordinate is in the block's range on its axis. -/
theorem mem_block (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- Row `r` of the result is in the block of point `r / 1024`. -/
theorem covered (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e6, e7⟩ := blockPlaces t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The result array after the run is the specification's function of the argument arrays as launched. -/
theorem finalArray (c : Dev nD) :
    (dats m 0 c).arrAt 3 cfg0.N = result (m ((c : Thread nD τ).loc main_arg0)) (m ((c : Thread nD τ).loc main_arg1))
      (m ((c : Thread nD τ).loc main_arg2)) :=
  (dats m 0 c).arrAt_eq_of_cover 3 _ (fun t _ => flushed_eq m c t) covered

/-- The kernel's run: the result array ends at the specification's function, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalArray m c), (h c).2⟩) (Value.run_blocks m ρ)

end Cert.KernelIdeal.WholeResult

end
-- ==== Proof.ResultEntry.lean ====
/-
  The reference's result, entry by entry, over the extended reals.

  The reference standardises every row of `x` with whole-array operations (row sums kept as one-column arrays and
  spread back), lays the standardised rows and the design points out as 8192 × 1024 × 16 arrays, sums the absolute
  differences along the last axis, negates, divides by one, exponentiates, and contracts the 8192 × 1024 table of
  kernel values with the factor.  Read at `(n, c)` each stage is the corresponding piece of the specification: a
  spread array read at an index is its operand at the index with the spread axis at 0, a row sum is the sum of the
  row's sixteen entries (the zero it starts from adds nothing), and the contraction is the sum over the 1024 design
  points.
-/
import proofs.«120727_j46608985096827_1_alg».proof.Proof.Gen.ReferenceIdeal.Read
import proofs.«120727_j46608985096827_1_alg».proof.Proof.LaplaceRows

noncomputable section

open scoped BigOperators

namespace Cert.ReferenceIdeal.ResultEntry

open Cert.ReferenceIdeal Cert.ReferenceIdeal.Read Idealize.ShloMosaic Idealize.ShloMosaic.ValueIdx Cert.LaplaceRows

/-! ## Where each stage reads its operand, at coordinates -/

theorem idx_v1 (n : Fin 8192) (u : Fin 1) : idx_main_v1 (ix2 n u) = ix1 n := funext fun a => Fin.ext (by match a with | ⟨0, _⟩ => rfl)
theorem idx_v0 (n : Fin 8192) (k : Fin 16) : idx_main_v0 (ix1 n) k = ix2 n k := funext fun a => Fin.ext (by match a with | ⟨0, _⟩ => rfl | ⟨1, _⟩ => rfl)
theorem idx_v4 (n : Fin 8192) (d : Fin 16) : idx_main_v4 (ix2 n d) = ix2 n (0 : Fin 1) := funext fun a => Fin.ext (by match a with | ⟨0, _⟩ => rfl | ⟨1, _⟩ => rfl)
theorem idx_v8 (n : Fin 8192) (u : Fin 1) : idx_main_v8 (ix2 n u) = ix1 n := funext fun a => Fin.ext (by match a with | ⟨0, _⟩ => rfl)
theorem idx_v7 (n : Fin 8192) (k : Fin 16) : idx_main_v7 (ix1 n) k = ix2 n k := funext fun a => Fin.ext (by match a with | ⟨0, _⟩ => rfl | ⟨1, _⟩ => rfl)
theorem idx_v11 (n : Fin 8192) (d : Fin 16) : idx_main_v11 (ix2 n d) = ix2 n (0 : Fin 1) := funext fun a => Fin.ext (by match a with | ⟨0, _⟩ => rfl | ⟨1, _⟩ => rfl)
theorem idx_v16 (n : Fin 8192) (d : Fin 16) : idx_main_v16 (ix2 n d) = ix2 n (0 : Fin 1) := funext fun a => Fin.ext (by match a with | ⟨0, _⟩ => rfl | ⟨1, _⟩ => rfl)
theorem idx_v24 (n : Fin 8192) (k : Fin 1024) (d : Fin 16) : idx_main_v24 (ix2 n k) d = ix3 n k d := funext fun a => Fin.ext (by match a with | ⟨0, _⟩ => rfl | ⟨1, _⟩ => rfl | ⟨2, _⟩ => rfl)
theorem idx_v20 (n : Fin 8192) (k : Fin 1024) (d : Fin 16) : idx_main_v20 (ix3 n k d) = ix3 n (0 : Fin 1) d := funext fun a => Fin.ext (by match a with | ⟨0, _⟩ => rfl | ⟨1, _⟩ => rfl | ⟨2, _⟩ => rfl)
theorem idx_v18 (n : Fin 8192) (u : Fin 1) (d : Fin 16) : idx_main_v18 (ix3 n u d) = ix2 n d := funext fun a => Fin.ext (by match a with | ⟨0, _⟩ => rfl | ⟨1, _⟩ => rfl)
theorem idx_v21 (n : Fin 8192) (k : Fin 1024) (d : Fin 16) : idx_main_v21 (ix3 n k d) = ix3 (0 : Fin 1) k d := funext fun a => Fin.ext (by match a with | ⟨0, _⟩ => rfl | ⟨1, _⟩ => rfl | ⟨2, _⟩ => rfl)
theorem idx_v19 (u : Fin 1) (k : Fin 1024) (d : Fin 16) : idx_main_v19 (ix3 u k d) = ix2 k d := funext fun a => Fin.ext (by match a with | ⟨0, _⟩ => rfl | ⟨1, _⟩ => rfl)
theorem lidx_v29 (n : Fin 8192) (c k : Fin 1024) : lidx_main_v29 (ix2 n c) k = ix2 n k := funext fun a => Fin.ext (by match a with | ⟨0, _⟩ => rfl | ⟨1, _⟩ => rfl)
theorem ridx_v29 (n : Fin 8192) (c k : Fin 1024) : ridx_main_v29 (ix2 n c) k = ix2 k c := funext fun a => Fin.ext (by match a with | ⟨0, _⟩ => rfl | ⟨1, _⟩ => rfl)

/-! ## The stages, at coordinates -/

variable (x : (⟨S8192x16, .f32⟩ : BufTy).Contents (Elt Ideal)) (z : (⟨S1024x16, .f32⟩ : BufTy).Contents (Elt Ideal))
  (chol : (⟨S1024x1024, .f32⟩ : BufTy).Contents (Elt Ideal))

/-- The one-column array of row means holds, at row `n`, the mean of row `n`. -/
theorem mean_at (n : Fin 8192) (u : Fin 1) : val_main_v3 x (ix2 n u) = rowMean (fun k => x (ix2 n k)) := by
  rw [val_main_v3_apply, val_main_v1_apply, idx_v1, val_main_v0_apply, val_main_v2_apply, val_main_cst_0_apply,
    val_main_cst_apply]
  simp only [idx_v0, Ideal.hostDivf_def, Ideal.ofBits_def, Ideal.ofBits_zero_f32, zero_add]
  rfl

/-- The centred array (as squared for the variance). -/
theorem centred_at (n : Fin 8192) (d : Fin 16) : val_main_v5 x (ix2 n d) = centred (fun k => x (ix2 n k)) d := by
  rw [val_main_v5_apply, val_main_v4_apply, idx_v4, mean_at]
  rfl

/-- The centred array (as scaled for the result). -/
theorem centred_at' (n : Fin 8192) (d : Fin 16) : val_main_v12 x (ix2 n d) = centred (fun k => x (ix2 n k)) d := by
  rw [val_main_v12_apply, val_main_v11_apply, idx_v11, mean_at]
  rfl

/-- The one-column array of row variances. -/
theorem var_at (n : Fin 8192) (u : Fin 1) : val_main_v10 x (ix2 n u) = rowVar (fun k => x (ix2 n k)) := by
  rw [val_main_v10_apply, val_main_v8_apply, idx_v8, val_main_v7_apply, val_main_v9_apply, val_main_cst_2_apply,
    val_main_cst_1_apply]
  simp only [idx_v7, val_main_v6_apply, centred_at, Ideal.hostDivf_def, Ideal.mulf_def, Ideal.ofBits_def,
    Ideal.ofBits_zero_f32, zero_add]
  rfl

/-- The standardised array. -/
theorem norm_at (n : Fin 8192) (d : Fin 16) : val_main_v17 x (ix2 n d) = normRow (fun k => x (ix2 n k)) d := by
  rw [val_main_v17_apply, centred_at', val_main_v16_apply, idx_v16, val_main_v15_apply, val_main_v14_apply, var_at,
    val_main_v13_apply, val_main_cst_3_apply]
  rfl

/-- One coordinate's distance between standardised row `n` and design point `k`. -/
theorem gap_at (n : Fin 8192) (k : Fin 1024) (d : Fin 16) :
    val_main_v23 x z (ix3 n k d) = gap (normRow fun j => x (ix2 n j)) (fun j => z (ix2 k j)) d := by
  rw [val_main_v23_apply, val_main_v22_apply, val_main_v20_apply, idx_v20, val_main_v18_apply, idx_v18, norm_at,
    val_main_v21_apply, idx_v21, val_main_v19_apply, idx_v19]
  rfl

/-- The table of kernel values. -/
theorem laplace_at (n : Fin 8192) (k : Fin 1024) :
    val_main_v28 x z (ix2 n k) = laplace (normRow fun j => x (ix2 n j)) (fun j => z (ix2 k j)) := by
  rw [val_main_v28_apply, val_main_v27_apply, val_main_v25_apply, val_main_v24_apply, val_main_v26_apply,
    val_main_cst_5_apply, val_main_cst_4_apply]
  simp only [idx_v24, gap_at, Ideal.ofBits_def, Ideal.ofBits_zero_f32, zero_add]
  rfl

/-- The reference's result is the specification's function of the three arguments. -/
theorem result_eq : val_main_v29 x z chol = result x z chol := by
  funext i
  obtain ⟨n, c, rfl⟩ : ∃ (n : Fin 8192) (c : Fin 1024), i = ix2 n c := ⟨i 0, i 1, eq_ix2 i⟩
  rw [val_main_v29_apply, result_apply]
  simp only [lidx_v29, ridx_v29, laplace_at]
  rfl

end Cert.ReferenceIdeal.ResultEntry

end
-- ==== Proof.lean ====
/-
  The kernel and its reference compute one function over the extended reals.

  Both standardise each of the 8192 rows of `x` (mean off, times the reciprocal square root of the variance plus a
  small constant), take the Laplace kernel `exp (-(Σ_d |u_d - z_d|) / 1)` of every standardised row against each of
  the 1024 design points, and multiply the 8192 × 1024 table of kernel values by the 1024 × 1024 factor.  They differ
  in arrangement only.  The kernel works on eight blocks of 1024 rows; it adds the sixteen coordinate distances one
  at a time from zero where the reference sums an 8192 × 1024 × 16 array along its last axis; it writes the negative
  as zero minus the sum; and it rounds the two matrix operands to a shorter float format, which is the identity on
  extended reals.  A sum of sixteen extended reals does not depend on the order of adding, zero minus a number is its
  negative, and the same bit pattern is the same constant on both sides, so entry `(n, c)` of either result is
  `Σ_k laplace (u_n) (z_k) · chol (k, c)` — for every input, finite or not: the precondition is not used.

  `LaplaceRows` states that function; `BlockEntry` reads one block of the kernel's body at an entry, `WholeResult`
  places the eight blocks in the array; `ResultEntry` reads the reference's stages at an entry.  Each program runs
  and leaves its arguments as they were (the two kernels' frames and the reference's run), and the idealised kernel
  is the kernel's own text (nothing was rewritten).
-/
import proofs.«120727_j46608985096827_1_alg».proof.Defs
import proofs.«120727_j46608985096827_1_alg».proof.Proof.Gen.Kernel
import proofs.«120727_j46608985096827_1_alg».proof.Proof.Gen.Kernel.Skeleton
import proofs.«120727_j46608985096827_1_alg».proof.Proof.Gen.Kernel.Launch
import proofs.«120727_j46608985096827_1_alg».proof.Proof.Gen.Kernel.Points
import proofs.«120727_j46608985096827_1_alg».proof.Proof.Gen.Kernel.Frame
import proofs.«120727_j46608985096827_1_alg».proof.Proof.Gen.KernelIdeal
import proofs.«120727_j46608985096827_1_alg».proof.Proof.Gen.KernelIdeal.Skeleton
import proofs.«120727_j46608985096827_1_alg».proof.Proof.Gen.KernelIdeal.Launch
import proofs.«120727_j46608985096827_1_alg».proof.Proof.Gen.KernelIdeal.Points
import proofs.«120727_j46608985096827_1_alg».proof.Proof.Gen.KernelIdeal.Frame
import proofs.«120727_j46608985096827_1_alg».proof.Proof.Gen.KernelIdeal.Value
import proofs.«120727_j46608985096827_1_alg».proof.Proof.Gen.ReferenceIdeal
import proofs.«120727_j46608985096827_1_alg».proof.Proof.Gen.ReferenceIdeal.Run
import proofs.«120727_j46608985096827_1_alg».proof.Proof.Gen.ReferenceIdeal.Read
import proofs.«120727_j46608985096827_1_alg».proof.Proof.Gen.Pre_finite_inputs
import proofs.«120727_j46608985096827_1_alg».proof.Proof.WholeResult
import proofs.«120727_j46608985096827_1_alg».proof.Proof.ResultEntry
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was idealised. -/
theorem preserves : Cert.preserves_Kernel_KernelIdeal := trivial

/-- From memories agreeing on the three arguments, both programs end with the specification's function of them:
    the kernel block by block, the reference stage by stage. -/
theorem algebraic : Cert.algebraic_KernelIdeal_ReferenceIdeal := by
  intro m ρ m' ρ' _ hagree
  refine ⟨_, Cert.KernelIdeal.WholeResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.ResultEntry.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
